-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S_ : Shape := ⟨0, ![]⟩
abbrev S65536 : Shape := ⟨1, ![65536]⟩
abbrev S33554432x1 : Shape := ⟨2, ![33554432, 1]⟩
abbrev S262144x128 : Shape := ⟨2, ![262144, 128]⟩
abbrev S8192x128 : Shape := ⟨2, ![8192, 128]⟩

abbrev nBuf : Space → Nat
  | .hbm => 40
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S65536, .f32⟩
  | .hbm, ⟨5, _⟩ => ⟨S33554432x1, .i32⟩
  | .hbm, ⟨6, _⟩ => ⟨S65536, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .i1⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .i32⟩
  | .hbm, ⟨28, _⟩ => ⟨S33554432, .i32⟩
  | .hbm, ⟨29, _⟩ => ⟨S33554432, .i1⟩
  | .hbm, ⟨30, _⟩ => ⟨S_, .i32⟩
  | .hbm, ⟨31, _⟩ => ⟨S33554432, .i32⟩
  | .hbm, ⟨32, _⟩ => ⟨S33554432, .i32⟩
  | .hbm, ⟨33, _⟩ => ⟨S33554432, .i32⟩
  | .hbm, ⟨34, _⟩ => ⟨S33554432x1, .i32⟩
  | .hbm, ⟨35, _⟩ => ⟨S33554432, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S65536 : S_.BroadcastsInDim S65536 (![] : Fin 0 → Fin S65536.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  shapeCasts_S33554432_S262144x128 : S33554432.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S33554432 : S262144x128.ShapeCasts S33554432
  scatter_S65536_S33554432x1_S33554432_n_0_0_1_wf : ScatterDims.WF S65536 S33554432x1 S33554432 [] [0] [0] 1
  gather_S65536_S33554432x1_S33554432_n_0_n_n_0_1_1_wf : GatherDims.WF S65536 S33554432x1 S33554432 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf
def gather_S65536_S33554432x1_S33554432_n_0_n_n_0_1_1 : GatherDims S65536 S33554432x1 S33554432 where
  offsetDims := []
  collapsedSliceDims := [0]
  operandBatchingDims := []
  startIndicesBatchingDims := []
  startIndexMap := [0]
  indexVectorDim := 1
  sliceSizes := ![1]
  wf := gather_S65536_S33554432x1_S33554432_n_0_n_n_0_1_1_wf

abbrev win0_0 : Pipeline.Window sig grid0 :=
  Pipeline.Window.ofSpec (Memref.whole main_v23) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S33554432 : Shape := ⟨1, ![33554432]⟩
abbrev S_ : Shape := ⟨0, ![]⟩
abbrev S65536 : Shape := ⟨1, ![65536]⟩
abbrev S33554432x1 : Shape := ⟨2, ![33554432, 1]⟩

abbrev nBuf : Space → Nat
  | .hbm => 37
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S65536, .f32⟩
  | .hbm, ⟨5, _⟩ => ⟨S33554432x1, .i32⟩
  | .hbm, ⟨6, _⟩ => ⟨S65536, .f32⟩
  | .hbm, ⟨7, _⟩ => ⟨S65536, .f32⟩
  | .hbm, ⟨8, _⟩ => ⟨S_, .f32⟩
  | .hbm, ⟨9, _⟩ => ⟨S65536, .f32⟩
  | .hbm, ⟨10, _⟩ => ⟨S65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .i1⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .i32⟩
  | .hbm, ⟨28, _⟩ => ⟨S33554432, .i32⟩
  | .hbm, ⟨29, _⟩ => ⟨S33554432, .i1⟩
  | .hbm, ⟨30, _⟩ => ⟨S_, .i32⟩
  | .hbm, ⟨31, _⟩ => ⟨S33554432, .i32⟩
  | .hbm, ⟨32, _⟩ => ⟨S33554432, .i32⟩
  | .hbm, ⟨33, _⟩ => ⟨S33554432, .i32⟩
  | .hbm, ⟨34, _⟩ => ⟨S33554432x1, .i32⟩
  | .hbm, ⟨35, _⟩ => ⟨S33554432, .f32⟩
  | .hbm, ⟨36, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  scatter_S65536_S33554432x1_S33554432_n_0_0_1_wf : ScatterDims.WF S65536 S33554432x1 S33554432 [] [0] [0] 1
  gather_S65536_S33554432x1_S33554432_n_0_n_n_0_1_1_wf : GatherDims.WF S65536 S33554432x1 S33554432 [] [0] [] [0] [] 1 ![1]

variable [Facts₀]

def scatter_S65536_S33554432x1_S33554432_n_0_0_1 : ScatterDims S65536 S33554432x1 S33554432 where
  updateWindowDims := []
  insertedWindowDims := [0]
  scatterDimsToOperandDims := [0]
  indexVectorDim := 1
  wf := scatter_S65536_S33554432x1_S33554432_n_0_0_1_wf
def gather_S65536_S33554432x1_S33554432_n_0_n_n_0_1_1 : GatherDims S65536 S33554432x1 S33554432 where
  offsetDims := []
  collapsedSliceDims := [0]
  operandBatchingDims := []
  startIndicesBatchingDims := []
  startIndexMap := [0]
  indexVectorDim := 1
  sliceSizes := ![1]
  wf := gather_S65536_S33554432x1_S33554432_n_0_n_n_0_1_1_wf

class Facts : Prop extends Facts₀ where

variable [Facts]
-- ==== Proof.LibAfter.lean ====
/-
  A general fact about a straight line of host operations: running one list of operations after another is
  running their concatenation.
-/
import Idealize.ShloMosaic.Lib.StableHlo.Run

namespace Idealize.ShloMosaic.StableHlo

variable {τ : Topo} {sig : RefSig} {Val : EltTy → Type}

/-- The buffer contents after the operations `l₁ ++ l₂` are the contents after `l₂`, started from the contents
    after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.Entry.lean ====
/-
  What the multiply region finds in its two input windows.

  Before the region the host computes, from the coefficient vector `x` and the group labels `g`, one factor
  per coefficient: the sum of squares of every group (a scatter-add of `x * x` along `g`), its square root
  `n`, the shrinkage `max (1 - 0.001 / (n + 1e-10)) 0` where `n > 1e-10` and `1` elsewhere, and that
  per-group number gathered back along `g` (labels below zero wrapped by the number of groups first).
  `shrinkFactor x g` names this whole chain as ONE function of the two argument arrays; nothing after this
  file looks inside it.  The region's first window is then `x` laid out as 262144 rows of 128 lanes, and
  its second window `shrinkFactor x g` in the same layout.

  The host operations come in three stretches (the arithmetic per group; the choice between the shrinkage and
  `1`; the gather and the two re-layouts).  Each stretch is read on its own, from ANY buffer contents `W` it
  may start from, and the three readings are then composed.
-/
import proofs.«100152_j79869211836511_2_alg».proof.Proof.Gen.KernelIdeal.Frame
import proofs.«100152_j79869211836511_2_alg».proof.Proof.LibAfter
import Idealize.ShloMosaic.Lib.StableHlo.Run
import Idealize.ShloMosaic.PureOps.Ideal

noncomputable section

namespace Cert.KernelIdeal.GroupShrink

open Cert.KernelIdeal Cert.KernelIdeal.Gen Idealize.ShloMosaic Idealize.ShloMosaic.TcCoe Idealize.SL.Sem
open Idealize.ShloMosaic.StableHlo

/-- A vector of one number per coefficient, one label per coefficient, one number per group. -/
abbrev Coeffs := (⟨S33554432, .f32⟩ : BufTy).Contents (Elt Ideal)
abbrev Labels := (⟨S33554432, .i32⟩ : BufTy).Contents (Elt Ideal)
abbrev PerGroup := (⟨S65536, .f32⟩ : BufTy).Contents (Elt Ideal)

/-- The norm of each group: the square root of `x * x` scatter-added along the labels into 65536 zeros. -/
def groupNorm (x : Coeffs) (g : Labels) : PerGroup :=
  Host.sqrt (F := Ideal)
    (Host.scatterAdd (F := Ideal) scatter_S65536_S33554432x1_S33554432_n_0_0_1
      (broadcastInDim S65536 ![] Facts₀.bcast_S_S65536 (constant (F := Ideal) S_ .f32 0x00000000#32))
      (broadcastInDim S33554432x1 ![0] Facts₀.bcast_S33554432_S33554432x1_0 g)
      (mulf (F := Ideal) x x))

/-- Where a group's norm is above `1e-10`. -/
def normAbove (x : Coeffs) (g : Labels) : (⟨S65536, .i1⟩ : BufTy).Contents (Elt Ideal) :=
  cmpf (F := Ideal) .ogt (groupNorm x g)
    (broadcastInDim S65536 ![] Facts₀.bcast_S_S65536 (constant (F := Ideal) S_ .f32 0x2EDBE6FF#32))

/-- The shrinkage of each group: `max (1 - 0.001 / (n + 1e-10)) 0`, `n` the group's norm. -/
def shrinkage (x : Coeffs) (g : Labels) : PerGroup :=
  maximumf (F := Ideal)
    (subf (F := Ideal) (broadcastInDim S65536 ![] Facts₀.bcast_S_S65536 (constant (F := Ideal) S_ .f32 0x3F800000#32))
      (Host.divf (F := Ideal) (broadcastInDim S65536 ![] Facts₀.bcast_S_S65536 (constant (F := Ideal) S_ .f32 0x3A83126F#32))
        (addf (F := Ideal) (groupNorm x g)
          (broadcastInDim S65536 ![] Facts₀.bcast_S_S65536 (constant (F := Ideal) S_ .f32 0x2EDBE6FF#32)))))
    (broadcastInDim S65536 ![] Facts₀.bcast_S_S65536 (constant (F := Ideal) S_ .f32 0x00000000#32))

/-- The factor of each group: its shrinkage where its norm is above `1e-10`, else `1`. -/
def groupFactor (x : Coeffs) (g : Labels) : PerGroup :=
  select (normAbove x g) (shrinkage x g)
    (broadcastInDim S65536 ![] Facts₀.bcast_S_S65536 (id (constant (F := Ideal) S_ .f32 0x3F800000#32)))

/-- The factor of each coefficient: its group's factor, gathered along the labels (a label below zero is
    first moved up by the number of groups). -/
def shrinkFactor (x : Coeffs) (g : Labels) : Coeffs :=
  Host.gather gather_S65536_S33554432x1_S33554432_n_0_n_n_0_1_1 (groupFactor x g)
    (broadcastInDim S33554432x1 ![0] Facts₀.bcast_S33554432_S33554432x1_0
      (select (cmpi .slt g (broadcastInDim S33554432 ![] Facts₀.bcast_S_S33554432 (constantI S_ 32 0#32)))
        (addi g (broadcastInDim S33554432 ![] Facts₀.bcast_S_S33554432 (constantI S_ 32 65536#32))) g))

/-! ## The three stretches, each from any starting contents -/

section Stretches

variable (W : Valuation τ sig (Elt Ideal))

/-- The first stretch leaves, in the buffer of the comparison, where each group's norm is above `1e-10`, -/
theorem first_above :
    after (hostOps0 : List (HloOp τ sig (Elt Ideal))) W (Proc.devRef .tc main_v14)
      = normAbove (W (Proc.devRef .tc main_arg0)) (W (Proc.devRef .tc main_arg1)) := by
  after_results_simp
  rfl

/-- in the buffer of the maximum, each group's shrinkage, -/
theorem first_shrinkage :
    after (hostOps0 : List (HloOp τ sig (Elt Ideal))) W (Proc.devRef .tc main_v12)
      = shrinkage (W (Proc.devRef .tc main_arg0)) (W (Proc.devRef .tc main_arg1)) := by
  after_results_simp
  rfl

/-- in the buffer of its last constant, the number one, -/
theorem first_one :
    after (hostOps0 : List (HloOp τ sig (Elt Ideal))) W (Proc.devRef .tc main_cst_5)
      = constant (F := Ideal) S_ .f32 0x3F800000#32 := by
  after_results_simp

/-- and the two arguments as they were. -/
theorem first_keeps_coeffs :
    after (hostOps0 : List (HloOp τ sig (Elt Ideal))) W (Proc.devRef .tc main_arg0) = W (Proc.devRef .tc main_arg0) := by
  after_results_simp
theorem first_keeps_labels :
    after (hostOps0 : List (HloOp τ sig (Elt Ideal))) W (Proc.devRef .tc main_arg1) = W (Proc.devRef .tc main_arg1) := by
  after_results_simp

/-- The second stretch chooses, group by group, between the buffer of the maximum and a broadcast of the buffer of
    the constant, by the buffer of the comparison, -/
theorem second_choice :
    after (hostOps0_1 : List (HloOp τ sig (Elt Ideal))) W (Proc.devRef .tc main_v15)
      = select (W (Proc.devRef .tc main_v14)) (W (Proc.devRef .tc main_v12))
          (broadcastInDim S65536 ![] Facts₀.bcast_S_S65536 (id (W (Proc.devRef .tc main_cst_5)))) := by
  after_results_simp
  rfl

/-- and leaves the two arguments as they were. -/
theorem second_keeps_coeffs :
    after (hostOps0_1 : List (HloOp τ sig (Elt Ideal))) W (Proc.devRef .tc main_arg0) = W (Proc.devRef .tc main_arg0) := by
  after_results_simp
theorem second_keeps_labels :
    after (hostOps0_1 : List (HloOp τ sig (Elt Ideal))) W (Proc.devRef .tc main_arg1) = W (Proc.devRef .tc main_arg1) := by
  after_results_simp

/-- The third stretch lays the coefficients out 128 to a row, -/
theorem third_coeffs :
    (after (hostOps0_2 : List (HloOp τ sig (Elt Ideal))) W (Proc.devRef .tc main_v23) : S262144x128.Idx → EReal)
      = shapeCast S262144x128 (W (Proc.devRef .tc main_arg0) : Coeffs) Facts₀.shapeCasts_S33554432_S262144x128 := by
  after_results_simp
  rfl

/-- and, in the same layout, the per-group buffer gathered along the wrapped labels. -/
theorem third_gathered :
    (after (hostOps0_2 : List (HloOp τ sig (Elt Ideal))) W (Proc.devRef .tc main_v24) : S262144x128.Idx → EReal)
      = shapeCast S262144x128
          (Host.gather gather_S65536_S33554432x1_S33554432_n_0_n_n_0_1_1 (W (Proc.devRef .tc main_v15) : PerGroup)
            (broadcastInDim S33554432x1 ![0] Facts₀.bcast_S33554432_S33554432x1_0
              (select (cmpi .slt (W (Proc.devRef .tc main_arg1) : Labels) (broadcastInDim S33554432 ![] Facts₀.bcast_S_S33554432 (constantI S_ 32 0#32)))
                (addi (W (Proc.devRef .tc main_arg1) : Labels) (broadcastInDim S33554432 ![] Facts₀.bcast_S_S33554432 (constantI S_ 32 65536#32)))
                (W (Proc.devRef .tc main_arg1) : Labels))) : Coeffs)
          Facts₀.shapeCasts_S33554432_S262144x128 := by
  after_results_simp
  rfl

end Stretches

/-! ## The three readings composed -/

variable (m : (ℓ : Loc nD τ sig) → Buf (Elt Ideal) ℓ)

/-- The contents the region is entered with are those after the third stretch, after the second, after the first. -/
theorem entry_contents (c : Dev nD) :
    V0 m c = after hostOps0_2 (after hostOps0_1 (after hostOps0 (fun b => m (c, b)))) := by
  dsimp only [V0]
  simp only [List.flatten_cons, List.flatten_nil, List.append_nil]
  rw [after_append, after_append]

/-- The first window's array, as the region finds it: the coefficients, 128 to a row. -/
theorem entry_coeffs (c : Dev nD) :
    (V m c main_v23 : S262144x128.Idx → EReal)
      = shapeCast S262144x128 (m ((c : Thread nD τ).loc main_arg0) : Coeffs) Facts₀.shapeCasts_S33554432_S262144x128 := by
  show (V0 m c (Proc.devRef .tc main_v23) : S262144x128.Idx → EReal) = _
  rw [entry_contents, third_coeffs, second_keeps_coeffs, first_keeps_coeffs]

/-- The second window's array, as the region finds it: each coefficient's factor, 128 to a row. -/
theorem entry_factor (c : Dev nD) :
    (V m c main_v24 : S262144x128.Idx → EReal)
      = shapeCast S262144x128 (shrinkFactor (m ((c : Thread nD τ).loc main_arg0)) (m ((c : Thread nD τ).loc main_arg1)))
          Facts₀.shapeCasts_S33554432_S262144x128 := by
  show (V0 m c (Proc.devRef .tc main_v24) : S262144x128.Idx → EReal) = _
  rw [entry_contents, third_gathered, second_choice, second_keeps_labels, first_above, first_shrinkage, first_one,
    first_keeps_labels]
  rfl

end Cert.KernelIdeal.GroupShrink

end
-- ==== Proof.LibSliceRead.lean ====
/-
  A general fact about reading a buffer through a rectangle of it.
-/
import Idealize.ShloMosaic.Signature.View

namespace Idealize.ShloMosaic.View

variable {sig : RefSig} {κ : Kind} {Val : EltTy → Type}

/-- What a rectangle of a whole buffer reads off the buffer's contents `f`, at an index `x` of the rectangle: the
    contents at the buffer index the rectangle sends `x` to. -/
theorem read_slice_whole_apply (b : Ref sig κ) (r : Rect b.ty.shape) (f : b.ty.Contents Val) (x : r.shape.Idx) :
    ((View.whole b).slice r).read Val f x = f (r.emb x) := rfl

end Idealize.ShloMosaic.View
-- ==== Proof.Blocks.lean ====
/-
  The multiply region, block by block, and the array it leaves.

  The region walks 32 grid points; at point `t` each of its three windows is block `t` of its array:
  rows `8192 * t` to `8192 * t + 8191`, all 128 lanes.  The body loads the two input blocks whole,
  multiplies them entry by entry and stores the product over the whole output block.  So what point `t`
  writes back is block `t` of ONE function of the two input arrays, their entrywise product; the 32 blocks
  are disjoint and together hold every row, so after the region the output array IS that product.
-/
import proofs.«100152_j79869211836511_2_alg».proof.Proof.Gen.KernelIdeal.Frame
import proofs.«100152_j79869211836511_2_alg».proof.Proof.LibSliceRead
import Idealize.ShloMosaic.Lib.Pipeline.Value
import Idealize.ShloMosaic.Lib.ValueIdx
import Idealize.ShloMosaic.PureOps.Ideal

noncomputable section

namespace Cert.KernelIdeal.GroupShrink

open Cert.KernelIdeal Cert.KernelIdeal.Gen Idealize.ShloMosaic Idealize.ShloMosaic.TcCoe Idealize.SL.Sem
open Idealize.ShloMosaic.Pipeline (Dat)

/-- The entrywise product of two arrays of 262144 rows of 128 lanes, on the extended reals. -/
def rowProduct (a b : S262144x128.Idx → EReal) : S262144x128.Idx → EReal := fun i => a i * b i

/-- The body's accesses all start at the block's corner. -/
theorem corner : (![0, 0] : Fin 2 → Nat) = fun _ => 0 := funext fun a => by fin_cases a <;> rfl

/-- What the body stores is the product of the two blocks it loaded (its two shape casts change nothing:
    each is from the block's shape to itself). -/
theorem stored_eq (x0 x1 : Vec Ideal S8192x128 .f32) : k0_pay1 x0 x1 = mulf x0 x1 := by
  unfold k0_pay1
  simp only [shapeCast_self]

/-- At every grid point the three windows sit on the same block: block number `t` along the rows (at most 31),
    block 0 along the lanes. -/
theorem same_block : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 31
    ∧ win0_2.index t (1 : Fin 2) = 0 :=
  (by decide +kernel : ∀ t : Fin grid0.N, _)

/-- Every one of the 32 row blocks is some grid point's. -/
theorem block_onto : ∀ q : Fin 32, ∃ t : Fin cfg0.N, win0_2.index t = ![q.val, 0] :=
  (by decide +kernel : ∀ q : Fin 32, ∃ t : Fin grid0.N, win0_2.index t = ![q.val, 0])

/-- So at a grid point the first window's rectangle sends a block index where the output window's does, -/
theorem rect_same0 (t : Fin cfg0.N) (j : S8192x128.Idx) :
    ((cfg0.win 0).rect t).emb j = ((cfg0.win 2).rect t).emb j := by
  obtain ⟨e0, e1, e2, e3, e4, e5⟩ := same_block t
  funext a; apply Fin.ext
  match a with
  | ⟨0, _⟩ => show win0_0.index t (0 : Fin 2) * 8192 + 1 * (j 0).val = win0_2.index t (0 : Fin 2) * 8192 + 1 * (j 0).val; omega
  | ⟨1, _⟩ => show win0_0.index t (1 : Fin 2) * 128 + 1 * (j 1).val = win0_2.index t (1 : Fin 2) * 128 + 1 * (j 1).val; omega

/-- and so does the second window's. -/
theorem rect_same1 (t : Fin cfg0.N) (j : S8192x128.Idx) :
    ((cfg0.win 1).rect t).emb j = ((cfg0.win 2).rect t).emb j := by
  obtain ⟨e0, e1, e2, e3, e4, e5⟩ := same_block t
  funext a; apply Fin.ext
  match a with
  | ⟨0, _⟩ => show win0_1.index t (0 : Fin 2) * 8192 + 1 * (j 0).val = win0_2.index t (0 : Fin 2) * 8192 + 1 * (j 0).val; omega
  | ⟨1, _⟩ => show win0_1.index t (1 : Fin 2) * 128 + 1 * (j 1).val = win0_2.index t (1 : Fin 2) * 128 + 1 * (j 1).val; omega

/-- The output window's block is never clipped: cutting a block's worth of values to it changes nothing. -/
theorem cut_whole (t : Fin cfg0.N) (X : Vec Ideal S8192x128 .f32) : (cfg0.win 2).cut (grid0.coords t) X = X := rfl

variable (m : (ℓ : Loc nD τ sig) → Buf (Elt Ideal) ℓ)

/-- What grid point `t` writes back is block `t` of the entrywise product of the two input arrays as the
    region finds them: the input blocks are those arrays read through the output block's own rectangle.
    (The two arrays are long host terms; they are named `A` and `B` before any index is looked at.) -/
theorem flushed_eq (c : Dev nD) (t : Fin cfg0.N) :
    (dats m 0 c).flushed 2 t
      = ((cfg0.win 2).blk t).view.read (Elt Ideal) (rowProduct (V m c main_v23) (V m c main_v24)) := by
  show (cfg0.win 2).cut (grid0.coords t) ((dats m 0 c).after 2 t) = _
  rw [after0_2]
  unfold out0_2
  rw [View.canon_unit_zero corner]
  simp only [View.ld_unit_zero (S := S8192x128) corner]
  rw [stored_eq]
  unfold iblk
  generalize V m c main_v23 = A
  generalize V m c main_v24 = B
  rw [cut_whole]
  funext j
  rw [Idealize.ShloMosaic.ValueIdx.mulf_apply]
  rw [View.read_slice_whole_apply, View.read_slice_whole_apply, View.read_slice_whole_apply]
  rw [rect_same0, rect_same1]
  rfl

/-- An index of the output array lies in point `t`'s block exactly when each coordinate lies in the block's
    range on its axis. -/
theorem mem_block (t : Fin cfg0.N) (i : S262144x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v25).slice (win0_2.rect t)).set ↔ _
  rw [View.set_slice_whole, Rect.mem_set_unit]
  exact Iff.rfl

/-- Every index of the output array is written back by some grid point: row `r` by the point on block `r / 8192`. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ := block_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- After the region the output array is the entrywise product of the two input arrays as the region found them. -/
theorem region_result (c : Dev nD) :
    (dats m 0 c).arrAt 2 cfg0.N = rowProduct (V m c main_v23) (V m c main_v24) :=
  (dats m 0 c).arrAt_eq_of_cover 2 _ (fun t _ => flushed_eq m c t) covered

end Cert.KernelIdeal.GroupShrink

end
-- ==== Proof.Tail.lean ====
/-
  The kernel's result.

  After the region the host lays the output array (262144 rows of 128 lanes) back out as one vector of
  33554432 numbers.  The region's output is the entrywise product of the coefficients and of their factors,
  both laid out 128 to a row; laying a vector out in rows and back changes nothing, and a product entry by
  entry does not care about the layout.  So the kernel's result is `x * shrinkFactor x g`, entry by entry.
-/
import proofs.«100152_j79869211836511_2_alg».proof.Proof.Entry
import proofs.«100152_j79869211836511_2_alg».proof.Proof.Blocks

noncomputable section

namespace Cert.KernelIdeal.GroupShrink

open Cert.KernelIdeal Cert.KernelIdeal.Gen Idealize.ShloMosaic Idealize.ShloMosaic.TcCoe Idealize.SL.Sem
open Idealize.ShloMosaic.StableHlo

/-- The product of two extended reals. -/
abbrev prod (a b : EReal) : EReal := a * b

/-- Two vectors laid out 128 to a row, multiplied entry by entry, and laid back out as a vector: their product. -/
theorem relayout_product (x f : Coeffs) :
    shapeCast S33554432
        (rowProduct (shapeCast S262144x128 x Facts₀.shapeCasts_S33554432_S262144x128)
          (shapeCast S262144x128 f Facts₀.shapeCasts_S33554432_S262144x128))
        Facts₀.shapeCasts_S262144x128_S33554432
      = mulf (F := Ideal) (φ := .f32) x f := by
  funext i
  have hx := congrFun (shapeCast_shapeCast x Facts₀.shapeCasts_S33554432_S262144x128 Facts₀.shapeCasts_S262144x128_S33554432) i
  have hf := congrFun (shapeCast_shapeCast f Facts₀.shapeCasts_S33554432_S262144x128 Facts₀.shapeCasts_S262144x128_S33554432) i
  show prod (shapeCast S33554432 (shapeCast S262144x128 x Facts₀.shapeCasts_S33554432_S262144x128) Facts₀.shapeCasts_S262144x128_S33554432 i)
      (shapeCast S33554432 (shapeCast S262144x128 f Facts₀.shapeCasts_S33554432_S262144x128) Facts₀.shapeCasts_S262144x128_S33554432 i)
    = prod (x i) (f i)
  rw [hx, hf]

variable (m : (ℓ : Loc nD τ sig) → Buf (Elt Ideal) ℓ)

/-- What the region leaves in its output array, in terms of the two arguments: the coefficients times their
    factors, 128 to a row. -/
theorem region_leaves (c : Dev nD) :
    Pipeline.withArrays (cfgs 0).spec c (V0 m c) (fun w => (dats m 0 c).arrAt w (cfgs 0).N) (Proc.devRef .tc main_v25)
      = rowProduct
          (shapeCast S262144x128 (m ((c : Thread nD τ).loc main_arg0) : Coeffs) Facts₀.shapeCasts_S33554432_S262144x128)
          (shapeCast S262144x128 (shrinkFactor (m ((c : Thread nD τ).loc main_arg0)) (m ((c : Thread nD τ).loc main_arg1)))
            Facts₀.shapeCasts_S33554432_S262144x128) := by
  refine ((Pipeline.withArrays_arr spec0 launch0.win.arr_inj c _ _ 2).trans (region_result m c)).trans ?_
  rw [entry_coeffs, entry_factor]

/-- What the host line after the region leaves in the result's buffer: the coefficients times their factors. -/
theorem result_eq (c : Dev nD) :
    (Pipeline.afterTail₀ cfgs (dats m) 0 (V0 m) [hostOps1] c main_v26 : S33554432.Idx → EReal)
      = mulf (F := Ideal) (φ := .f32) (m ((c : Thread nD τ).loc main_arg0) : Coeffs)
          (shrinkFactor (m ((c : Thread nD τ).loc main_arg0)) (m ((c : Thread nD τ).loc main_arg1))) := by
  unfold Pipeline.afterTail₀
  show StableHlo.after hostOps1 _ (Proc.devRef .tc main_v26) = _
  after_results
  rw [region_leaves]
  generalize shrinkFactor (m ((c : Thread nD τ).loc main_arg0)) (m ((c : Thread nD τ).loc main_arg1)) = F
  generalize m ((c : Thread nD τ).loc main_arg0) = x
  exact relayout_product x F

end Cert.KernelIdeal.GroupShrink

end
-- ==== Proof.RefSide.lean ====
/-
  The reference computes the same thing.

  The reference program applies, operation for operation and literal for literal, the host chain that the
  kernel's program applies before its multiply region, and then multiplies the coefficients by the gathered
  factors directly.  Its shapes, its scatter and gather dimension records and its broadcast facts are its own
  copies of the kernel program's, equal field by field; so the reference's result term IS
  `x * shrinkFactor x g`.
-/
import proofs.«100152_j79869211836511_2_alg».proof.Proof.Entry
import proofs.«100152_j79869211836511_2_alg».proof.Proof.Gen.ReferenceIdeal.Run

noncomputable section

namespace Cert.ReferenceIdeal.SameChain

open Idealize.ShloMosaic Idealize.ShloMosaic.TcCoe Idealize.SL.Sem
open Cert.ReferenceIdeal Cert.ReferenceIdeal.Gen

/-- The reference's result term, of any coefficient vector `x` and labels `g`, is the coefficients times the
    kernel program's `shrinkFactor` of them. -/
theorem result_term (x : Cert.KernelIdeal.GroupShrink.Coeffs) (g : Cert.KernelIdeal.GroupShrink.Labels) :
    mulf (F := Ideal) (φ := .f32) x (Host.gather gather_S65536_S33554432x1_S33554432_n_0_n_n_0_1_1 (select (cmpf (F := Ideal) .ogt (Host.sqrt (F := Ideal) (Host.scatterAdd (F := Ideal) scatter_S65536_S33554432x1_S33554432_n_0_0_1 (broadcastInDim S65536 ![] Facts₀.bcast_S_S65536 (constant (F := Ideal) S_ .f32 0x00000000#32)) (broadcastInDim S33554432x1 ![0] Facts₀.bcast_S33554432_S33554432x1_0 g) (mulf (F := Ideal) (φ := .f32) x x))) (broadcastInDim S65536 ![] Facts₀.bcast_S_S65536 (constant (F := Ideal) S_ .f32 0x2EDBE6FF#32))) (maximumf (F := Ideal) (subf (F := Ideal) (broadcastInDim S65536 ![] Facts₀.bcast_S_S65536 (constant (F := Ideal) S_ .f32 0x3F800000#32)) (Host.divf (F := Ideal) (broadcastInDim S65536 ![] Facts₀.bcast_S_S65536 (constant (F := Ideal) S_ .f32 0x3A83126F#32)) (addf (F := Ideal) (Host.sqrt (F := Ideal) (Host.scatterAdd (F := Ideal) scatter_S65536_S33554432x1_S33554432_n_0_0_1 (broadcastInDim S65536 ![] Facts₀.bcast_S_S65536 (constant (F := Ideal) S_ .f32 0x00000000#32)) (broadcastInDim S33554432x1 ![0] Facts₀.bcast_S33554432_S33554432x1_0 g) (mulf (F := Ideal) (φ := .f32) x x))) (broadcastInDim S65536 ![] Facts₀.bcast_S_S65536 (constant (F := Ideal) S_ .f32 0x2EDBE6FF#32))))) (broadcastInDim S65536 ![] Facts₀.bcast_S_S65536 (constant (F := Ideal) S_ .f32 0x00000000#32))) (broadcastInDim S65536 ![] Facts₀.bcast_S_S65536 (id (constant (F := Ideal) S_ .f32 0x3F800000#32)))) (broadcastInDim S33554432x1 ![0] Facts₀.bcast_S33554432_S33554432x1_0 (select (cmpi .slt g (broadcastInDim S33554432 ![] Facts₀.bcast_S_S33554432 (constantI S_ 32 0#32))) (addi g (broadcastInDim S33554432 ![] Facts₀.bcast_S_S33554432 (constantI S_ 32 65536#32))) g)))
      = mulf (F := Ideal) (φ := .f32) x (Cert.KernelIdeal.GroupShrink.shrinkFactor x g) := rfl

end Cert.ReferenceIdeal.SameChain

end
-- ==== Proof.lean ====
/-
  A group-lasso proximal step: every coefficient is multiplied by a factor that depends on the norm of its
  group.  With `x` the coefficients and `g` their group labels, the norm of a group is the square root of
  the sum of the squares of its members, its factor is `max (1 - 0.001 / (n + 1e-10)) 0` where `n > 1e-10`
  and `1` elsewhere, and the result is `x` times the factor of each coefficient's group.

  Both programs compute the factors with the same host operations, literal for literal.  They differ only in
  the last product: the reference multiplies the two vectors of 33554432 numbers directly; the kernel lays
  both out as 262144 rows of 128 lanes, multiplies them 8192 rows at a time over 32 grid points, and lays the
  product back out as a vector.  A product entry by entry does not depend on the layout, the 32 blocks
  tile the rows, and laying out and back is the identity: the two results are equal entry by entry, on all
  extended reals, so the precondition is never opened.

  The factor chain is named once (`GroupShrink.shrinkFactor`) and never looked into.  The three frames are
  the generated ones; no rewrite was applied in idealizing the kernel, so that conjunct is `True`.
-/
import proofs.«100152_j79869211836511_2_alg».proof.Defs
import proofs.«100152_j79869211836511_2_alg».proof.Proof.Gen.Kernel
import proofs.«100152_j79869211836511_2_alg».proof.Proof.Gen.Kernel.Skeleton
import proofs.«100152_j79869211836511_2_alg».proof.Proof.Gen.Kernel.Launch
import proofs.«100152_j79869211836511_2_alg».proof.Proof.Gen.Kernel.Points
import proofs.«100152_j79869211836511_2_alg».proof.Proof.Gen.Kernel.Frame
import proofs.«100152_j79869211836511_2_alg».proof.Proof.Gen.KernelIdeal
import proofs.«100152_j79869211836511_2_alg».proof.Proof.Gen.KernelIdeal.Skeleton
import proofs.«100152_j79869211836511_2_alg».proof.Proof.Gen.KernelIdeal.Launch
import proofs.«100152_j79869211836511_2_alg».proof.Proof.Gen.KernelIdeal.Points
import proofs.«100152_j79869211836511_2_alg».proof.Proof.Gen.KernelIdeal.Frame
import proofs.«100152_j79869211836511_2_alg».proof.Proof.Gen.ReferenceIdeal
import proofs.«100152_j79869211836511_2_alg».proof.Proof.Gen.Pre_finite_inputs
import proofs.«100152_j79869211836511_2_alg».proof.Proof.Gen.ReferenceIdeal.Run
import proofs.«100152_j79869211836511_2_alg».proof.Proof.Gen.ReferenceIdeal.Read
import proofs.«100152_j79869211836511_2_alg».proof.Proof.Tail
import proofs.«100152_j79869211836511_2_alg».proof.Proof.RefSide
import Idealize.ShloMosaic.Adequacy
import Idealize.ShloMosaic.Init

noncomputable section

namespace Cert.Proof

open Idealize.ShloMosaic Idealize.ShloMosaic.TcCoe Idealize.SL.Sem

/-! ## The kernel's run, with its result named -/

namespace KernelRun

open Cert.KernelIdeal Cert.KernelIdeal.Gen Cert.KernelIdeal.GroupShrink

/-- Every weakly fair execution of the idealized kernel's program terminates with the result's buffer at the
    coefficients times their factors, and the two arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
          = mulf (F := Ideal) (φ := .f32) (m ((c.tc : Thread nD τ).loc main_arg0) : Coeffs)
              (shrinkFactor (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v26 (Pipeline.mem_restRefs_of main_v26 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end KernelRun

/-! ## The claims -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two arguments both programs end with the coefficients times their factors. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.SameChain.result_term _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
